-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) (main_arg1 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x2x512x512 .f32 := Host.absf main_arg1
  let main_cst_0 : FVec F S_ .f32 := constant S_ .f32 0x7F800000#32
  let main_v5 : FVec F S64x2x512x512 .f32 := broadcastInDim S64x2x512x512 ![] bcast_S_S64x2x512x512 main_cst_0
  let main_v6 : IVec S64x2x512x512 1 := cmpf .olt main_v4 main_v5
  let main_c_1 : IVec S_ 1 := constantI S_ 1 1#1
  let main_v7 : IVec S_ 1 := (fun x v => Host.reduce IntOp.andi x v reducesTo_S64x2x512x512_S_d0_1_2_3 h_S_) main_v6 main_c_1
  let main_v8 : IVec S_ 1 := andi main_v3 main_v7
  main_v8
-- ==== Kernel.lean ====
abbrev S64x2x512x512 : Shape := ⟨4, ![64, 2, 512, 512]⟩
abbrev S262144x128 : Shape := ⟨2, ![262144, 128]⟩
abbrev S1x262144x128 : Shape := ⟨3, ![1, 262144, 128]⟩
abbrev S2x262144x128 : Shape := ⟨3, ![2, 262144, 128]⟩
abbrev S2x16x16 : Shape := ⟨3, ![2, 16, 16]⟩
abbrev S1x256x128 : Shape := ⟨3, ![1, 256, 128]⟩
abbrev S1x16x16 : Shape := ⟨3, ![1, 16, 16]⟩
abbrev S16x16 : Shape := ⟨2, ![16, 16]⟩
abbrev S256x128 : Shape := ⟨2, ![256, 128]⟩
abbrev S1x1x16 : Shape := ⟨3, ![1, 1, 16]⟩
abbrev S256x128x1 : Shape := ⟨3, ![256, 128, 1]⟩
abbrev S256x128x16 : Shape := ⟨3, ![256, 128, 16]⟩
abbrev S32768x16 : Shape := ⟨2, ![32768, 16]⟩
abbrev S2x256 : Shape := ⟨2, ![2, 256]⟩
abbrev S1x256 : Shape := ⟨2, ![1, 256]⟩
abbrev S256 : Shape := ⟨1, ![256]⟩
abbrev S_ : Shape := ⟨0, ![]⟩

abbrev nBuf : Space → Nat
  | .hbm => 39
  | .vmem => 5
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S262144x128, .f32⟩
  | .hbm, ⟨3, _⟩ => ⟨S262144x128, .f32⟩
  | .hbm, ⟨4, _⟩ => ⟨S1x262144x128, .f32⟩
  | .hbm, ⟨5, _⟩ => ⟨S1x262144x128, .f32⟩
  | .hbm, ⟨6, _⟩ => ⟨S2x262144x128, .f32⟩
  | .hbm, ⟨7, _⟩ => ⟨S2x16x16, .f32⟩
  | .hbm, ⟨8, _⟩ => ⟨S2x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x256x128, .f32⟩
  | .local _ .vmem, ⟨1, _⟩ => ⟨S1x256x128, .f32⟩
  | .local _ .vmem, ⟨2, _⟩ => ⟨S1x16x16, .f32⟩
  | .local _ .vmem, ⟨3, _⟩ => ⟨S1x16x16, .f32⟩
  | .local _ .vmem, ⟨4, _⟩ => ⟨S16x16, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1024], ![false, false]⟩

def k0_cond2 (i : grid0.Coords) : BitVec 1 :=
  let arg1 : BitVec 32 := BitVec.ofNat 32 (i 1).val
  let c1023_i32 : BitVec 32 := 1023#32
  let v74 : BitVec 1 := Scalar.cmpi .eq arg1 c1023_i32
  let v75 : BitVec 32 := Scalar.extui v74
  let c0_i32_19 : BitVec 32 := 0#32
  let v76 : BitVec 1 := Scalar.cmpi .ne v75 c0_i32_19
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x2x512x512_S262144x128 : S64x2x512x512.ShapeCasts S262144x128
  bcast_S262144x128_S1x262144x128_1_2 : S262144x128.BroadcastsInDim S1x262144x128 (![1, 2] : Fin 2 → Fin S1x262144x128.rank)
  concatenates_S1x262144x128_S1x262144x128_S2x262144x128_d0 : Shape.Concatenates [S1x262144x128, S1x262144x128] S2x262144x128 0
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  natLt_1_32 : 1 < 32
  iota_S1x1x16_d2_w32 : S1x1x16.Iotas .tc 32 [2]
  shapeCasts_S256x128_S256x128x1 : S256x128.ShapeCasts S256x128x1
  broadcasts_S256x128x1_S256x128x16 : S256x128x1.Broadcasts S256x128x16
  broadcasts_S1x1x16_S256x128x16 : S1x1x16.Broadcasts S256x128x16
  bitsLt_bf16_f32 : FTy.bits .bf16 < FTy.bits .f32
  shapeCasts_S256x128x16_S32768x16 : S256x128x16.ShapeCasts S32768x16
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S16x16_S1x16x16 : S16x16.ShapeCasts S1x16x16
  shapeCasts_S2x16x16_S2x256 : S2x16x16.ShapeCasts S2x256
  slices_S2x256_S1x256_0_0 : S2x256.Slices ![0, 0] S1x256
  shapeCasts_S1x256_S256 : S1x256.ShapeCasts S256
  slices_S2x256_S1x256_1_0 : S2x256.Slices ![1, 0] S1x256
  reducesTo_S256_S_d0 : S256.ReducesTo [0] S_
  h_S_ : 0 < S_.numel
  bcast_S_S256 : S_.BroadcastsInDim S256 (![] : Fin 0 → Fin S256.rank)
  dot_S32768x16_S32768x16_S16x16_0_0_1_1_n_n_wf : DotDims.WF S32768x16 S32768x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S2x262144x128.size a
  hwx0_0 : ∀ i : grid0.Coords, EltTy.bits .f32 = 32 ∨ (Rect.block (s := S2x262144x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16.size a ≤ S2x16x16.size a
  hwx0_1 : ∀ i : grid0.Coords, EltTy.bits .f32 = 32 ∨ (Rect.block (s := S2x16x16) S1x16x16.size (cc0_transform_1 i) (hinb0_1 i)).WholeWords (EltTy.packing .f32)

variable [Facts₀]

def dot_S32768x16_S32768x16_S16x16_0_0_1_1_n_n : DotDims S32768x16 S32768x16 S16x16 where
  lhsContracting := [0]
  rhsContracting := [0]
  lhsNonContracting := [1]
  rhsNonContracting := [1]
  lhsBatch := []
  rhsBatch := []
  wf := dot_S32768x16_S32768x16_S16x16_0_0_1_1_n_n_wf

abbrev win0_0 : Pipeline.Window sig grid0 :=
  Pipeline.Window.ofSpec (Memref.whole main_v4) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x2x512x512 : Shape := ⟨4, ![64, 2, 512, 512]⟩
abbrev S33554432 : Shape := ⟨1, ![33554432]⟩
abbrev S_ : Shape := ⟨0, ![]⟩
abbrev S256 : Shape := ⟨1, ![256]⟩
abbrev S33554432x1 : Shape := ⟨2, ![33554432, 1]⟩

abbrev nBuf : Space → Nat
  | .hbm => 86
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .f32⟩
  | .hbm, ⟨20, _⟩ => ⟨S33554432, .f32⟩
  | .hbm, ⟨21, _⟩ => ⟨S33554432, .i1⟩
  | .hbm, ⟨22, _⟩ => ⟨S_, .f32⟩
  | .hbm, ⟨23, _⟩ => ⟨S33554432, .f32⟩
  | .hbm, ⟨24, _⟩ => ⟨S33554432, .i1⟩
  | .hbm, ⟨25, _⟩ => ⟨S33554432, .i1⟩
  | .hbm, ⟨26, _⟩ => ⟨S33554432, .f32⟩
  | .hbm, ⟨27, _⟩ => ⟨S_, .f32⟩
  | .hbm, ⟨28, _⟩ => ⟨S256, .f32⟩
  | .hbm, ⟨29, _⟩ => ⟨S33554432x1, .i32⟩
  | .hbm, ⟨30, _⟩ => ⟨S256, .f32⟩
  | .hbm, ⟨31, _⟩ => ⟨S33554432, .f32⟩
  | .hbm, ⟨32, _⟩ => ⟨S_, .f32⟩
  | .hbm, ⟨33, _⟩ => ⟨S33554432, .f32⟩
  | .hbm, ⟨34, _⟩ => ⟨S33554432, .f32⟩
  | .hbm, ⟨35, _⟩ => ⟨S_, .f32⟩
  | .hbm, ⟨36, _⟩ => ⟨S33554432, .f32⟩
  | .hbm, ⟨37, _⟩ => ⟨S33554432, .f32⟩
  | .hbm, ⟨38, _⟩ => ⟨S33554432, .f32⟩
  | .hbm, ⟨39, _⟩ => ⟨S33554432, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S33554432, .i32⟩
  | .hbm, ⟨44, _⟩ => ⟨S33554432, .i32⟩
  | .hbm, ⟨45, _⟩ => ⟨S_, .i32⟩
  | .hbm, ⟨46, _⟩ => ⟨S33554432, .i32⟩
  | .hbm, ⟨47, _⟩ => ⟨S33554432, .i32⟩
  | .hbm, ⟨48, _⟩ => ⟨S_, .f32⟩
  | .hbm, ⟨49, _⟩ => ⟨S33554432, .f32⟩
  | .hbm, ⟨50, _⟩ => ⟨S33554432, .i1⟩
  | .hbm, ⟨51, _⟩ => ⟨S_, .f32⟩
  | .hbm, ⟨52, _⟩ => ⟨S33554432, .f32⟩
  | .hbm, ⟨53, _⟩ => ⟨S33554432, .i1⟩
  | .hbm, ⟨54, _⟩ => ⟨S33554432, .i1⟩
  | .hbm, ⟨55, _⟩ => ⟨S33554432, .f32⟩
  | .hbm, ⟨56, _⟩ => ⟨S_, .f32⟩
  | .hbm, ⟨57, _⟩ => ⟨S256, .f32⟩
  | .hbm, ⟨58, _⟩ => ⟨S33554432x1, .i32⟩
  | .hbm, ⟨59, _⟩ => ⟨S256, .f32⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_c_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_12 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  shapeCasts_S64x2x512x512_S33554432 : S64x2x512x512.ShapeCasts S33554432
  bcast_S_S33554432 : S_.BroadcastsInDim S33554432 (![] : Fin 0 → Fin S33554432.rank)
  bcast_S_S256 : S_.BroadcastsInDim S256 (![] : Fin 0 → Fin S256.rank)
  bcast_S33554432_S33554432x1_0 : S33554432.BroadcastsInDim S33554432x1 (![0] : Fin 1 → Fin S33554432x1.rank)
  reducesTo_S256_S_d0 : S256.ReducesTo [0] S_
  h_S_ : 0 < S_.numel
  scatter_S256_S33554432x1_S33554432_n_0_0_1_wf : ScatterDims.WF S256 S33554432x1 S33554432 [] [0] [0] 1

variable [Facts₀]

def scatter_S256_S33554432x1_S33554432_n_0_0_1 : ScatterDims S256 S33554432x1 S33554432 where
  updateWindowDims := []
  insertedWindowDims := [0]
  scatterDimsToOperandDims := [0]
  indexVectorDim := 1
  wf := scatter_S256_S33554432x1_S33554432_n_0_0_1_wf

class Facts : Prop extends Facts₀ where

variable [Facts]
-- ==== Proof.KernelPoint.lean ====
/-
  What one grid point of the histogram kernel leaves behind, as values.

  The body keeps a 16×16 accumulator in scratch.  At the first tile of an input it stores zeros there; at
  every tile it adds the tile's 16×16 table of nibble-pair counts; at the last tile it copies the accumulator
  to the output block.  So after a point the scratch holds `step x acc`: the tile's table added to what the
  point before left (to zeros at a first tile), and at a last tile the output block is that same table
  re-laid as [1,16,16].
-/
import proofs.«172522_j89893665505443_2_alg».proof.Proof.Gen.KernelIdeal.Frame
import Idealize.ShloMosaic.Lib.Pipeline.Value
import Idealize.ShloMosaic.Lib.Tactic

noncomputable section

namespace Cert.KernelIdeal.Point

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after one tile: the tile's table of nibble-pair counts added to `acc`. -/
def step (x : Vec F S1x256x128 .f32) (acc : Vec F S16x16 .f32) : Vec F S16x16 .f32 :=
  k0_pay1 (k0_pay5 x) (k0_pay6 x) (k0_pay7 x) (k0_pay8 x) (k0_pay9 x) acc

/-- A middle tile: the scratch ends at the step from what it held. -/
theorem scratch_B (c : Dev nD) (i : grid0.Coords) (a2 : Memref sig .tc .vmem S1x256x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : ¬cond0_1 i) (x : Vec F S1x256x128 .f32) (xs : Vec F S16x16 .f32) :
    sout0_B_0 c i a2 h2 a3 h3 a4 h4 hc0 hc1 x xs = step x xs := by
  unfold sout0_B_0
  rw [View.read_writes_eq_canon _ _ _ (scover0_B_0 c i a2 h2 a3 h3 a4 h4 hc0 hc1 x xs)]
  unfold kernelRun0_B
  dsimp only
  sl_unfold_words
  rw [View.canon_unit_zero hz2]
  simp only [View.readAt_eq_ld, h2.read_unread, h4.read_unread, View.ld_unit_zero (S := S16x16) hz2,
    View.ld_unit_zero (S := S1x256x128) hz3]
  rfl

/-- A last tile: the scratch ends at the step from what it held, -/
theorem scratch_C (c : Dev nD) (i : grid0.Coords) (a2 : Memref sig .tc .vmem S1x256x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : cond0_1 i) (x : Vec F S1x256x128 .f32) (xs : Vec F S16x16 .f32) :
    sout0_C_0 c i a2 h2 a3 h3 a4 h4 hc0 hc1 x xs = step x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz2]
  simp only [View.readAt_eq_ld, h2.read_unread, h4.read_unread, View.ld_unit_zero (S := S16x16) hz2,
    View.ld_unit_zero (S := S1x256x128) hz3]
  rfl

/-- and the output block at that accumulator re-laid as [1,16,16]. -/
theorem out_C (c : Dev nD) (i : grid0.Coords) (a2 : Memref sig .tc .vmem S1x256x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : cond0_1 i) (x : Vec F S1x256x128 .f32) (xs : Vec F S16x16 .f32) :
    out0_C_1 c i a2 h2 a3 h3 a4 h4 hc0 hc1 x xs = k0_pay2 (step x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz3, View.readCov_unit_zero (S := S16x16) _ hz2]
  simp only [View.readAt_eq_ld, h2.read_unread, h4.read_unread, View.ld_unit_zero (S := S16x16) hz2,
    View.ld_unit_zero (S := S1x256x128) hz3]
  rfl

/-- A first tile: the scratch is zeroed, then stepped. -/
theorem scratch_A (c : Dev nD) (i : grid0.Coords) (a2 : Memref sig .tc .vmem S1x256x128 .f32) (h2 : a2.IsWhole)
    (a3 : Memref sig .tc .vmem S1x16x16 .f32) (h3 : a3.IsWhole) (a4 : Memref sig .tc .vmem S16x16 .f32) (h4 : a4.IsWhole)
    (hc0 : cond0_0 i) (hc1 : ¬cond0_1 i) (x : Vec F S1x256x128 .f32) :
    sout0_A_0 c i a2 h2 a3 h3 a4 h4 hc0 hc1 x = step x (k0_pay3 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S16x16) hz2, View.readCov_unit_zero (S := S16x16) _ hz2]
  simp only [View.readAt_eq_ld, h2.read_unread, View.ld_unit_zero (S := S16x16) hz2,
    View.ld_unit_zero (S := S1x256x128) hz3]
  rfl

end Cert.KernelIdeal.Point

end
-- ==== Proof.HistSpec.lean ====
/-
  The histogram both programs compute, as one function of the argument arrays.

  One element x of an input falls in bin clip(⌊(x + 1) / (2/256)⌋, 0, 255) and counts when -1 ≤ x ≤ 1.  The
  kernel splits the bin word b into its two nibbles b / 16 and b mod 16, compares each with a lane number and
  multiplies the two 0/1 answers: the product is 1 exactly when b = 16·h + l.  Summed over every element of
  an array this is the number of counted elements in bin 16·h + l, which is also what a scatter-add of the
  0/1 mask at the bin words leaves in slot 16·h + l.
-/
import Idealize.ShloMosaic.PureOps.Ideal
import Idealize.ShloMosaic.Lib.ValueIdx

noncomputable section

namespace Cert.HistSpec

open Idealize.ShloMosaic

/-! ## One element -/

/-- The mask bit of one element: -1 ≤ x ∧ x ≤ 1. -/
def inRange (x : EReal) : BitVec 1 :=
  IntOp.andi (FloatOps.cmpf (F := Ideal) (φ := .f32) .oge x (FloatOps.ofBits .f32 0xBF800000#32))
    (FloatOps.cmpf (F := Ideal) (φ := .f32) .ole x (FloatOps.ofBits .f32 0x3F800000#32))

/-- The bin word of one element: ⌊(x - (-1)) / 2⁻⁷⌋ converted to a 32-bit integer and clipped to [0, 255]. -/
def binWord (x : EReal) : BitVec 32 :=
  IntOp.minsi 255#32 (IntOp.maxsi 0#32 (FloatOps.fptosi (F := Ideal) (φ := .f32) 32
    (FloatOps.floor (F := Ideal) (φ := .f32) (FloatOps.divf (F := Ideal) (φ := .f32)
      (FloatOps.subf (F := Ideal) (φ := .f32) x (FloatOps.ofBits .f32 0xBF800000#32))
      (FloatOps.ofBits .f32 0x3C000000#32)))))

/-- What one element adds to bin `i`: 1 when it is counted and its bin is `i`, else 0. -/
def ind (x : EReal) (i : ℕ) : EReal := if inRange x = 1#1 ∧ (binWord x).toNat = i then 1 else 0

/-- A clipped word is a number below 256. -/
theorem clip_lt (z : BitVec 32) : (IntOp.minsi 255#32 (IntOp.maxsi 0#32 z)).toNat < 256 := by
  have h0 : (0#32 : BitVec 32).toInt = 0 := by decide
  have h255 : (255#32 : BitVec 32).toInt = 255 := by decide
  have hz := BitVec.toInt_eq_toNat_cond z
  have hlt := z.isLt
  unfold IntOp.minsi IntOp.maxsi
  split_ifs with h1 h2 h2 <;> simp only [BitVec.slt, decide_eq_true_eq, h0, h255] at * <;>
    first | decide | (split_ifs at hz <;> omega)

theorem binWord_lt (x : EReal) : (binWord x).toNat < 256 := clip_lt _

/-- The high nibble as the kernel computes it: a floor division by 16 written as a truncating division
    corrected where the signs differ and the remainder is not zero. -/
def hiWord (b : BitVec 32) : BitVec 32 :=
  Scalar.select
    (IntOp.andi
      (IntOp.cmpi .ne
        (IntOp.subi ((IntOp.cmpi .sgt b 0#32).setWidth 32) ((IntOp.cmpi .slt b 0#32).setWidth 32))
        (Scalar.subi (Scalar.extui (Scalar.cmpi .sgt 16#32 0#32)) (Scalar.extui (Scalar.cmpi .slt 16#32 0#32))))
      (IntOp.cmpi .ne (IntOp.remsi .vector b 16#32) 0#32))
    (IntOp.subi (IntOp.divsi .vector b 16#32) 1#32)
    (IntOp.divsi .vector b 16#32)

/-- The low nibble: the word less sixteen times its high nibble. -/
def loWord (b : BitVec 32) : BitVec 32 := IntOp.subi b (IntOp.muli (hiWord b) 16#32)

/-- On a number below 256 the two are the quotient and the remainder by 16. -/
theorem nibbles : ∀ n : Fin 256, hiWord (BitVec.ofNat 32 n.val) = BitVec.ofNat 32 (n.val / 16)
    ∧ loWord (BitVec.ofNat 32 n.val) = BitVec.ofNat 32 (n.val % 16) := by decide +kernel

/-- One factor of the kernel's product: the masked nibble (-1 where the element is not counted) compared
    with a lane number, as a 0/1 real. -/
def oneHot (c : BitVec 1) (w : BitVec 32) (k : ℕ) : EReal :=
  ((((IntOp.cmpi .eq (Scalar.select c w 4294967295#32) (BitVec.ofNat 32 k)).setWidth 32).toInt : ℝ) : EReal)

theorem cmpi_eq_ofNat (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · have : BitVec.ofNat 32 a ≠ BitVec.ofNat 32 b := by
      intro e
      have := congrArg BitVec.toNat e
      simp only [BitVec.toNat_ofNat, Nat.mod_eq_of_lt ha, Nat.mod_eq_of_lt hb] at this
      exact h this
    rw [if_neg h, beq_eq_false_iff_ne.mpr this]; rfl

theorem oneHot_counted (w k : ℕ) (hw : w < 256) (hk : k < 16) :
    oneHot 1#1 (BitVec.ofNat 32 w) k = if w = k then 1 else 0 := by
  unfold oneHot Scalar.select
  rw [if_pos (show (1#1 : BitVec 1) = 1 from rfl), cmpi_eq_ofNat w k (by omega) (by omega)]
  by_cases h : w = k
  · rw [if_pos h, if_pos h]; simp
  · rw [if_neg h, if_neg h]; simp

theorem oneHot_masked (c : BitVec 1) (hc : c ≠ 1#1) (w : BitVec 32) (k : ℕ) (hk : k < 16) :
    oneHot c w k = 0 := by
  unfold oneHot Scalar.select
  rw [if_neg (show ¬c = 1 from hc)]
  have : IntOp.cmpi .eq (4294967295#32) (BitVec.ofNat 32 k) = 0#1 := by
    have := cmpi_eq_ofNat 4294967295 k (by omega) (by omega)
    rw [if_neg (by omega)] at this
    exact this
  rw [this]; simp

/-- The kernel's product for one element and one pair of lanes. -/
def kInd (x : EReal) (h l : ℕ) : EReal :=
  oneHot (inRange x) (hiWord (binWord x)) h * oneHot (inRange x) (loWord (binWord x)) l

/-- The product of the two nibble tests is the test of the whole bin. -/
theorem kInd_eq (x : EReal) (h l : ℕ) (hh : h < 16) (hl : l < 16) : kInd x h l = ind x (16 * h + l) := by
  unfold kInd ind
  by_cases hc : inRange x = 1#1
  · have hb := binWord_lt x
    obtain ⟨hhi, hlo⟩ := nibbles ⟨(binWord x).toNat, hb⟩
    have e : binWord x = BitVec.ofNat 32 (binWord x).toNat := by simp
    rw [hc, e, hhi, hlo, oneHot_counted _ _ (by omega) hh, oneHot_counted _ _ (by omega) hl]
    simp only [BitVec.toNat_ofNat, Nat.mod_eq_of_lt (show (binWord x).toNat < 2 ^ 32 by omega), true_and]
    by_cases h1 : (binWord x).toNat / 16 = h <;> by_cases h2 : (binWord x).toNat % 16 = l
    · rw [if_pos h1, if_pos h2, if_pos (by omega)]; simp
    · rw [if_pos h1, if_neg h2, if_neg (by omega)]; simp
    · rw [if_neg h1, if_pos h2, if_neg (by omega)]; simp
    · rw [if_neg h1, if_neg h2, if_neg (by omega)]; simp
  · rw [oneHot_masked _ hc _ _ hh, oneHot_masked _ hc _ _ hl, if_neg (fun h => hc h.1)]; simp

/-! ## One array -/

/-- Position `n` of an input read as one row-major list of 64·2·512·512 numbers. -/
abbrev unflat (n : Fin 33554432) : (⟨4, ![64, 2, 512, 512]⟩ : Shape).Idx := fun a => match a with
  | ⟨0, _⟩ => ⟨n.val / 524288, by have := n.isLt; show n.val / 524288 < 64; omega⟩
  | ⟨1, _⟩ => ⟨n.val / 262144 % 2, by show n.val / 262144 % 2 < 2; omega⟩
  | ⟨2, _⟩ => ⟨n.val / 512 % 512, by show n.val / 512 % 512 < 512; omega⟩
  | ⟨3, _⟩ => ⟨n.val % 512, by show n.val % 512 < 512; omega⟩

abbrev B256 : Shape := ⟨1, ![256]⟩
abbrev B0 : Shape := ⟨0, ![]⟩

/-- The histogram of one input: slot `i` counts the elements in range whose bin is `i`. -/
def counts (x : (⟨4, ![64, 2, 512, 512]⟩ : Shape).Idx → EReal) : FVec Ideal B256 .f32 :=
  fun i => ∑ n : Fin 33554432, ind (x (unflat n)) (i 0).val

/-! ## From the two histograms to the result -/

section Tail
variable {F : FTy → Type} [FloatOps F]
variable (hr : B256.ReducesTo [0] B0) (hS : 0 < B0.numel) (hb : B0.BroadcastsInDim B256 (![] : Fin 0 → Fin B256.rank))

/-- The probabilities H / ∑H + ε. -/
def prob (H : FVec F B256 .f32) : FVec F B256 .f32 :=
  addf (Host.divf H (broadcastInDim B256 ![] hb (Host.reduceAdd H (constant B0 .f32 0x00000000#32) hr hS)))
    (broadcastInDim B256 ![] hb (constant B0 .f32 0x322BCC77#32))

/-- The entropy -∑ p·log p of a histogram's probabilities. -/
def entropy (H : FVec F B256 .f32) : FVec F B0 .f32 :=
  Host.negf (Host.reduceAdd (mulf (prob hr hS hb H) (Host.log (prob hr hS hb H))) (constant B0 .f32 0x00000000#32) hr hS)

/-- The result: the absolute difference of the two entropies. -/
def entropyGap (H0 H1 : FVec F B256 .f32) : FVec F B0 .f32 :=
  Host.absf (subf (entropy hr hS hb H0) (entropy hr hS hb H1))

end Tail

end Cert.HistSpec

end
-- ==== Proof.KernelStep.lean ====
/-
  One tile's step, read at an index over the extended reals.

  The step adds to the accumulator the matrix product, contracted over the tile's 32768 elements, of two
  32768×16 matrices of 0/1 entries: entry (k, h) of the first says that element k is counted and its bin's
  high nibble is h, entry (k, l) of the second the same for the low nibble.  So entry (h, l) of the product
  counts the tile's elements in bin 16·h + l.
-/
import proofs.«172522_j89893665505443_2_alg».proof.Proof.KernelPoint
import proofs.«172522_j89893665505443_2_alg».proof.Proof.HistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Idealize.ShloMosaic Idealize.ShloMosaic.TcCoe Idealize.ShloMosaic.ValueIdx
open Cert.KernelIdeal Cert.KernelIdeal.Gen Cert.KernelIdeal.Point Cert.HistSpec

variable {F : FTy → Type} [FloatOps F]

/-- The high nibble of every element's bin, -1 where the element is not counted. -/
def hiVec (x : Vec F S1x256x128 .f32) : IVec S256x128 32 :=
  select (k0_pay5 x)
    (select (andi (k0_pay8 x) (k0_pay9 x)) (subi (k0_pay7 x) (broadcast S256x128 1#32)) (k0_pay7 x))
    (broadcast S256x128 4294967295#32)

/-- The low nibble likewise. -/
def loVec (x : Vec F S1x256x128 .f32) : IVec S256x128 32 :=
  select (k0_pay5 x)
    (subi (k0_pay6 x) (muli (select (andi (k0_pay8 x) (k0_pay9 x)) (subi (k0_pay7 x) (broadcast S256x128 1#32)) (k0_pay7 x))
      (broadcast S256x128 16#32)))
    (broadcast S256x128 4294967295#32)

/-- The 32768×16 matrix of 0/1 entries saying which of the sixteen lane numbers each element's word is. -/
def oneHotMat (w : IVec S256x128 32) : FVec F S32768x16 .bf16 :=
  shapeCast S32768x16 (truncf .bf16 (sitofp .f32 (extui 32 (cmpi .eq
    (broadcastTo S256x128x16 (shapeCast S256x128x1 w shapeCasts_S256x128_S256x128x1) broadcasts_S256x128x1_S256x128x16)
    (broadcastTo S256x128x16 (iota .tc S1x1x16 32 [2] iota_S1x1x16_d2_w32) broadcasts_S1x1x16_S256x128x16)) natLt_1_32))
    bitsLt_bf16_f32) shapeCasts_S256x128x16_S32768x16

/-- The step is the accumulator plus the product of the two 0/1 matrices. -/
theorem step_eq (x : Vec F S1x256x128 .f32) (acc : Vec F S16x16 .f32) :
    step x acc = shapeCast S16x16 (addf acc (matmul dot_S32768x16_S32768x16_S16x16_0_0_1_1_n_n none
      (oneHotMat (hiVec x)) (oneHotMat (loVec x)) (constant S16x16 .f32 0x00000000#32))) shapeCasts_S16x16_S16x16 := rfl

/-- The tile read as [256,128]. -/
theorem tile_apply (x : Vec F S1x256x128 .f32) (p : Fin 256) (q : Fin 128) :
    k0_pay4 x (ix2 p q) = x (ix3 (0 : Fin 1) p q) := by
  unfold k0_pay4
  exact shapeCast_apply x shapeCasts_S1x256x128_S256x128 (ix2 p q) (ix3 (0 : Fin 1) p q)
    (by rw [Shape.rowMajor_val_three, Shape.rowMajor_val_two]; show (0 * 256 + p.val) * 128 + q.val = p.val * 128 + q.val; omega)

/-- Element (p, q)'s masked high nibble, -/
theorem hiVec_apply (x : Vec Ideal S1x256x128 .f32) (p : Fin 256) (q : Fin 128) :
    hiVec x (ix2 p q) = Scalar.select (inRange (x (ix3 (0 : Fin 1) p q))) (hiWord (binWord (x (ix3 (0 : Fin 1) p q)))) 4294967295#32 := by
  have e := tile_apply x p q
  show Scalar.select (inRange (k0_pay4 x (ix2 p q))) (hiWord (binWord (k0_pay4 x (ix2 p q)))) 4294967295#32 = _
  rw [e]

/-- and masked low nibble. -/
theorem loVec_apply (x : Vec Ideal S1x256x128 .f32) (p : Fin 256) (q : Fin 128) :
    loVec x (ix2 p q) = Scalar.select (inRange (x (ix3 (0 : Fin 1) p q))) (loWord (binWord (x (ix3 (0 : Fin 1) p q)))) 4294967295#32 := by
  have e := tile_apply x p q
  show Scalar.select (inRange (k0_pay4 x (ix2 p q))) (loWord (binWord (k0_pay4 x (ix2 p q)))) 4294967295#32 = _
  rw [e]

/-- Entry (k, h) of the 0/1 matrix: element k = 128·p + q of the tile, lane h. -/
theorem oneHotMat_apply (w : IVec S256x128 32) (k : Fin 32768) (h : Fin 16) :
    oneHotMat (F := Ideal) w (ix2 k h)
      = ((((IntOp.cmpi .eq (w (ix2 (⟨k.val / 128, by have := k.isLt; omega⟩ : Fin 256) (⟨k.val % 128, by omega⟩ : Fin 128)))
          (BitVec.ofNat 32 h.val)).setWidth 32).toInt : ℝ) : EReal) := by
  unfold oneHotMat
  rw [shapeCast_apply _ shapeCasts_S256x128x16_S32768x16 (ix2 k h)
    (ix3 (⟨k.val / 128, by have := k.isLt; omega⟩ : Fin 256) (⟨k.val % 128, by omega⟩ : Fin 128) h)
    (by rw [Shape.rowMajor_val_three, Shape.rowMajor_val_two]
        show (k.val / 128 * 128 + k.val % 128) * 16 + h.val = k.val * 16 + h.val
        omega)]
  show ((((IntOp.cmpi .eq
      (broadcastTo S256x128x16 (shapeCast S256x128x1 w shapeCasts_S256x128_S256x128x1) broadcasts_S256x128x1_S256x128x16
        (ix3 (⟨k.val / 128, by have := k.isLt; omega⟩ : Fin 256) (⟨k.val % 128, by omega⟩ : Fin 128) h))
      (broadcastTo S256x128x16 (iota .tc S1x1x16 32 [2] iota_S1x1x16_d2_w32) broadcasts_S1x1x16_S256x128x16
        (ix3 (⟨k.val / 128, by have := k.isLt; omega⟩ : Fin 256) (⟨k.val % 128, by omega⟩ : Fin 128) h))).setWidth 32).toInt : ℝ) : EReal) = _
  rw [broadcastTo_apply _ broadcasts_S256x128x1_S256x128x16 _
      (ix3 (⟨k.val / 128, by have := k.isLt; omega⟩ : Fin 256) (⟨k.val % 128, by omega⟩ : Fin 128) (0 : Fin 1))
      (fun a => by match a with
        | ⟨0, _⟩ => rfl
        | ⟨1, _⟩ => rfl
        | ⟨2, _⟩ => rfl),
    broadcastTo_apply _ broadcasts_S1x1x16_S256x128x16 _ (ix3 (0 : Fin 1) (0 : Fin 1) h)
      (fun a => by match a with
        | ⟨0, _⟩ => rfl
        | ⟨1, _⟩ => rfl
        | ⟨2, _⟩ => rfl),
    shapeCast_apply w shapeCasts_S256x128_S256x128x1 _
      (ix2 (⟨k.val / 128, by have := k.isLt; omega⟩ : Fin 256) (⟨k.val % 128, by omega⟩ : Fin 128))
      (by rw [Shape.rowMajor_val_three, Shape.rowMajor_val_two]
          show k.val / 128 * 128 + k.val % 128 = (k.val / 128 * 128 + k.val % 128) * 1 + 0
          omega)]
  rw [show iota .tc S1x1x16 32 [2] iota_S1x1x16_d2_w32 (ix3 (0 : Fin 1) (0 : Fin 1) h) = BitVec.ofNat 32 h.val from by
    show BitVec.ofNat 32 (0 * 16 + h.val) = _
    rw [Nat.zero_mul, Nat.zero_add]]

/-- The printed contraction: over axis 0 of both operands. -/
abbrev D := dot_S32768x16_S32768x16_S16x16_0_0_1_1_n_n

/-- The operand indices of the contraction, one coordinate at a time: row k of both operands, column h of the
    first and column l of the second, for the output entry (h, l). -/
theorem lhs_axis0 (i : S16x16.Idx) (q : D.contr.Idx) : (D.lhsIdx i q 0).val = (q ⟨0, by decide⟩).val :=
  D.lhsIdx_val_of_single rfl i q
theorem rhs_axis0 (i : S16x16.Idx) (q : D.contr.Idx) : (D.rhsIdx i q 0).val = (q ⟨0, by decide⟩).val :=
  D.rhsIdx_val_of_single rfl i q
theorem lhs_axis1 (i : S16x16.Idx) (q : D.contr.Idx) : (D.lhsIdx i q 1).val = (i 0).val := by
  unfold DotDims.lhsIdx
  rw [dif_neg (show ¬(1 : Fin S32768x16.rank) ∈ D.lhsBatch by decide), dif_pos (show (1 : Fin S32768x16.rank) ∈ D.lhsNonContracting by decide)]
  rfl
theorem rhs_axis1 (i : S16x16.Idx) (q : D.contr.Idx) : (D.rhsIdx i q 1).val = (i 1).val := by
  unfold DotDims.rhsIdx
  rw [dif_neg (show ¬(1 : Fin S32768x16.rank) ∈ D.rhsBatch by decide), dif_pos (show (1 : Fin S32768x16.rank) ∈ D.rhsNonContracting by decide)]
  rfl

/-- THE STEP AT AN INDEX: the accumulator's entry plus the number of the tile's elements in bin 16·h + l. -/
theorem step_apply (x : Vec Ideal S1x256x128 .f32) (acc : Vec Ideal S16x16 .f32) (h l : Fin 16) :
    step x acc (ix2 h l) = acc (ix2 h l) + ∑ k : Fin 32768,
      ind (x (ix3 (0 : Fin 1) (⟨k.val / 128, by have := k.isLt; omega⟩ : Fin 256) (⟨k.val % 128, by omega⟩ : Fin 128))) (16 * h.val + l.val) := by
  rw [step_eq, shapeCast_self, addf_apply]
  simp only [matmul]
  rewrite [Ideal.matmul_constant_zero_apply]
  refine congrArg (acc (ix2 h l) + ·) (((Equiv.sum_comp (contrEquiv1 D 32768 rfl rfl).symm _).symm).trans
    (Finset.sum_congr rfl fun k _ => ?_))
  have c2 := contrEquiv1_symm_val D 32768 rfl rfl k
  have l2 : D.lhsIdx (ix2 h l) ((contrEquiv1 D 32768 rfl rfl).symm k) = ix2 k h := by
    funext ax; apply Fin.ext
    match ax with
    | ⟨0, _⟩ => exact (lhs_axis0 _ _).trans c2
    | ⟨1, _⟩ => exact lhs_axis1 _ _
  have r2 : D.rhsIdx (ix2 h l) ((contrEquiv1 D 32768 rfl rfl).symm k) = ix2 k l := by
    funext ax; apply Fin.ext
    match ax with
    | ⟨0, _⟩ => exact (rhs_axis0 _ _).trans c2
    | ⟨1, _⟩ => exact rhs_axis1 _ _
  rw [l2, r2, oneHotMat_apply, oneHotMat_apply, hiVec_apply, loVec_apply]
  exact kInd_eq _ h.val l.val h.isLt l.isLt

/-- The zero block a first tile stores. -/
theorem zero_apply (j : S16x16.Idx) : k0_pay3 (F := Ideal) j = 0 := by
  unfold k0_pay3
  rw [shapeCast_self]
  exact Ideal.ofBits_zero_f32

end Cert.KernelIdeal.Step

end
-- ==== Proof.KernelChain.lean ====
/-
  The accumulator over the grid, and the output array the region leaves.

  The 2048 points are 2 inputs × 1024 tiles, the tile index fastest.  The scratch is zeroed at a tile index 0
  and stepped at every point, so after point n it holds the sum of the tile tables from the first tile of n's
  input up to n; at a tile index 1023 that sum — over the input's 1024 tiles — is written back as block
  n / 1024 of the [2,16,16] output.
-/
import proofs.«172522_j89893665505443_2_alg».proof.Proof.KernelStep

noncomputable section

namespace Cert.KernelIdeal.Chain

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Point Cert.KernelIdeal.Step Cert.HistSpec

section AnyValues
variable {F : FTy → Type} [FloatOps F]
variable (m : (ℓ : Loc nD τ sig) → Buf (Elt F) ℓ)

/-- The scratch after point `n`: zeroed at a first tile, stepped by the point's tile. -/
def chain (c : Dev nD) : (n : ℕ) → n < cfg0.N → Vec F S16x16 .f32
  | 0, h => step (iblk m c 0 ⟨0, h⟩) (k0_pay3 (F := F))
  | n + 1, h =>
    if (n + 1) % 1024 = 0 then step (iblk m c 0 ⟨n + 1, h⟩) (k0_pay3 (F := F))
    else step (iblk m c 0 ⟨n + 1, h⟩) (chain c n (Nat.lt_of_succ_lt h))

theorem chain_first (c : Dev nD) (n : ℕ) (h : n < cfg0.N) (h0 : n % 1024 = 0) :
    chain m c n h = step (iblk m c 0 ⟨n, h⟩) (k0_pay3 (F := F)) := by
  cases n with
  | zero => rfl
  | succ n => unfold chain; rw [if_pos h0]

theorem chain_next (c : Dev nD) (n : ℕ) (h : n + 1 < cfg0.N) (h0 : ¬(n + 1) % 1024 = 0) :
    chain m c (n + 1) h = step (iblk m c 0 ⟨n + 1, h⟩) (chain m c n (Nat.lt_of_succ_lt h)) := by
  rw [chain, if_neg h0]

/-- What the generated run found in the scratch after each point is that chain. -/
theorem scratch_eq (c : Dev nD) : ∀ (n : ℕ) (h : n < cfg0.N), (outsAt0 m c n h).2 = chain m c n h
  | 0, h => by
    rw [outsAt0_A m c ⟨0, h⟩ (Nat.zero_mod _) (show ¬(0 : ℕ) % 1024 = 1023 by decide)]
    dsimp only
    rw [scratch_A (F := F)]
    rfl
  | n + 1, h => by
    have hN : cfg0.N = 2048 := N_0
    by_cases h0 : (n + 1) % 1024 = 0
    · have h1 : ¬(n + 1) % 1024 = 1023 := by omega
      rw [outsAt0_A m c ⟨n + 1, h⟩ h0 h1, chain_first m c (n + 1) h h0]
      dsimp only
      rw [scratch_A (F := F)]
    · by_cases h1 : (n + 1) % 1024 = 1023
      · rw [outsAt0_C m c ⟨n + 1, h⟩ h0 h1, chain_next m c n h h0]
        dsimp only
        rw [scratch_C (F := F)]
        exact congrArg (step (iblk m c 0 ⟨n + 1, h⟩)) (scratch_eq c n (Nat.lt_of_succ_lt h))
      · rw [outsAt0_B m c ⟨n + 1, h⟩ h0 h1, chain_next m c n h h0]
        dsimp only
        rw [scratch_B (F := F)]
        exact congrArg (step (iblk m c 0 ⟨n + 1, h⟩)) (scratch_eq c n (Nat.lt_of_succ_lt h))

/-- And in the output's staging buffer after a last tile: the chain re-laid as [1,16,16]. -/
theorem out_eq (c : Dev nD) (n : ℕ) (h : n < cfg0.N) (h0 : ¬n % 1024 = 0) (h1 : n % 1024 = 1023) :
    (outsAt0 m c n h).1 = k0_pay2 (chain m c n h) := by
  cases n with
  | zero => exact absurd (Nat.zero_mod _) h0
  | succ n =>
    rw [outsAt0_C m c ⟨n + 1, h⟩ h0 h1, chain_next m c n h h0]
    dsimp only
    rw [out_C (F := F)]
    exact congrArg (fun a => k0_pay2 (step (iblk m c 0 ⟨n + 1, h⟩) a)) (scratch_eq m c n (Nat.lt_of_succ_lt h))

end AnyValues

/-! ## Over the extended reals -/

section AtIdeal
variable (m : (ℓ : Loc nD τ sig) → Buf (Elt Ideal) ℓ)

/-- The table of counts of the tile at point `n`: entry (h, l) counts the tile's elements in bin 16·h + l. -/
def tileCounts (c : Dev nD) (n : ℕ) (j : S16x16.Idx) : EReal :=
  if h : n < cfg0.N then
    ∑ k : Fin 32768, ind ((iblk m c 0 ⟨n, h⟩ : Vec Ideal S1x256x128 .f32)
      (ix3 (0 : Fin 1) (⟨k.val / 128, by have := k.isLt; omega⟩ : Fin 256) (⟨k.val % 128, by omega⟩ : Fin 128)))
      (16 * (j 0).val + (j 1).val)
  else 0

/-- A step by the tile at point `n` adds that table. -/
theorem step_tile (c : Dev nD) (n : ℕ) (h : n < cfg0.N) (acc : Vec Ideal S16x16 .f32) (j : S16x16.Idx) :
    step (iblk m c 0 ⟨n, h⟩) acc j = acc j + tileCounts m c n j := by
  obtain ⟨hh, ll, rfl⟩ : ∃ (hh : Fin 16) (ll : Fin 16), j = ix2 hh ll := ⟨j 0, j 1, eq_ix2 j⟩
  rewrite [step_apply]
  unfold tileCounts
  rewrite [dif_pos h]
  rfl

/-- THE ACCUMULATOR AFTER POINT n: the sum of the tables of the tiles of n's input up to n. -/
theorem chain_apply (c : Dev nD) : ∀ (n : ℕ) (h : n < cfg0.N) (j : S16x16.Idx),
    chain m c n h j = ∑ tt ∈ Finset.range (n % 1024 + 1), tileCounts m c (n - n % 1024 + tt) j
  | 0, h, j => by
    rw [chain_first m c 0 h (Nat.zero_mod _), step_tile, zero_apply, zero_add]
    simp
  | n + 1, h, j => by
    by_cases h0 : (n + 1) % 1024 = 0
    · rw [chain_first m c (n + 1) h h0, step_tile, zero_apply, zero_add, h0]
      simp
    · rw [chain_next m c n h h0, step_tile, chain_apply c n _ j]
      have e1 : (n + 1) % 1024 = n % 1024 + 1 := by omega
      have e2 : n + 1 - (n % 1024 + 1) = n - n % 1024 := by omega
      have e3 : n - n % 1024 + (n % 1024 + 1) = n + 1 := by omega
      rw [e1, e2, Finset.sum_range_succ _ (n % 1024 + 1), e3]

end AtIdeal

end Cert.KernelIdeal.Chain

end
-- ==== Proof.KernelArray.lean ====
/-
  The [2,16,16] array the region leaves: entry (a, h, l) is the sum, over the 1024 tiles of input a, of the
  tiles' counts for bin 16·h + l.  Point 1024·a + 1023 writes block a back, and the two blocks are the array.
-/
import proofs.«172522_j89893665505443_2_alg».proof.Proof.KernelChain

noncomputable section

namespace Cert.KernelIdeal.Array

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Point Cert.KernelIdeal.Step Cert.KernelIdeal.Chain Cert.HistSpec

variable (m : (ℓ : Loc nD τ sig) → Buf (Elt Ideal) ℓ)

/-- The printed index maps over the grid: point t = 1024·a + s reads tile s of input a and, when it writes
    back, writes block a of the output. -/
theorem idx_facts : ∀ t : Fin cfg0.N, win0_0.index t (0 : Fin 3) = t.val / 1024 ∧ win0_0.index t (1 : Fin 3) = t.val % 1024
    ∧ win0_0.index t (2 : Fin 3) = 0 ∧ win0_1.index t (0 : Fin 3) = t.val / 1024 ∧ win0_1.index t (1 : Fin 3) = 0
    ∧ win0_1.index t (2 : Fin 3) = 0 :=
  (by decide +kernel : ∀ t : Fin grid0.N, _)

/-- The accumulator re-laid as [1,16,16] reads the same entry. -/
theorem relay_apply (v : Vec Ideal S16x16 .f32) (hh ll : Fin 16) : k0_pay2 v (ix3 (0 : Fin 1) hh ll) = v (ix2 hh ll) := by
  unfold k0_pay2
  exact shapeCast_apply v shapeCasts_S16x16_S1x16x16 (ix3 (0 : Fin 1) hh ll) (ix2 hh ll)
    (by rw [Shape.rowMajor_val_two, Shape.rowMajor_val_three]
        show hh.val * 16 + ll.val = (0 * 16 + hh.val) * 16 + ll.val
        omega)

/-- The output array: per input, the sum of its 1024 tiles' tables. -/
def outArr (c : Dev nD) : Buf (Elt Ideal) ((c : Thread nD τ).loc main_v5) :=
  (fun i : S2x16x16.Idx => ∑ tt ∈ Finset.range 1024, tileCounts m c ((i 0).val * 1024 + tt) (ix2 (i 1) (i 2)) :
    S2x16x16.Idx → EReal)

/-- What a last tile's point writes back is its block of that array. -/
theorem flushed_eq (c : Dev nD) (t : Fin cfg0.N) (hf : (cfg0.win 1).flush t = true) :
    (dats m 0 c).flushed 1 t = ((cfg0.win 1).blk t).view.read (Elt Ideal) (outArr m c) := by
  have h1 : t.val % 1024 = 1023 := (flush0_1 t).mp hf
  have h0 : ¬t.val % 1024 = 0 := by omega
  have hN : t.val < 2048 := lt_of_lt_of_eq t.isLt (show cfg0.N = 2048 from N_0)
  obtain ⟨_, _, _, e0, e1, e2⟩ := idx_facts t
  show (cfg0.win 1).cut (grid0.coords t) ((dats m 0 c).after 1 t) = _
  rw [after0_1, out_eq m c t.val t.isLt h0 h1]
  funext y
  show k0_pay2 (chain m c t.val t.isLt) y = outArr m c (((cfg0.win 1).blk t).view.emb y)
  obtain ⟨y0, hh, ll, rfl⟩ : ∃ (y0 : Fin 1) (hh ll : Fin 16), y = ix3 y0 hh ll := ⟨y 0, y 1, y 2, eq_ix3 y⟩
  obtain rfl : y0 = 0 := Subsingleton.elim _ _
  have hemb : ((cfg0.win 1).blk t).view.emb (ix3 (0 : Fin 1) hh ll) = ix3 (⟨t.val / 1024, by omega⟩ : Fin 2) hh ll := by
    funext a; apply Fin.ext
    match a with
    | ⟨0, _⟩ => show win0_1.index t (0 : Fin 3) * 1 + 1 * 0 = t.val / 1024; rw [e0]; omega
    | ⟨1, _⟩ => show win0_1.index t (1 : Fin 3) * 16 + 1 * hh.val = hh.val; rw [e1]; omega
    | ⟨2, _⟩ => show win0_1.index t (2 : Fin 3) * 16 + 1 * ll.val = ll.val; rw [e2]; omega
  rw [relay_apply, chain_apply, hemb]
  show _ = ∑ tt ∈ Finset.range 1024, tileCounts m c (t.val / 1024 * 1024 + tt) (ix2 hh ll)
  rw [h1, show t.val - 1023 = t.val / 1024 * 1024 from by omega]

/-- An index of the output is in point t's block iff each coordinate is in the block's range. -/
theorem mem_blk (t : Fin cfg0.N) (i : S2x16x16.Idx) :
    i ∈ ((cfg0.win 1).blk t).view.set ↔ ∀ a : Fin 3, win0_1.index t a * S1x16x16.size a ≤ (i a).val ∧ (i a).val < win0_1.index t a * S1x16x16.size a + S1x16x16.size a := by
  show i ∈ ((View.whole main_v5).slice (win0_1.rect t)).set ↔ _
  rw [View.set_slice_whole, Rect.mem_set_unit]
  exact Iff.rfl

/-- THE ARRAY AFTER THE REGION. -/
theorem final (c : Dev nD) : (dats m 0 c).arrAt 1 cfg0.N = outArr m c :=
  (dats m 0 c).arrAt_eq_of_cover 1 (outArr m c) (flushed_eq m c) fun i => by
    have hi0 : (i 0).val < 2 := (i 0).isLt
    have hi1 : (i 1).val < 16 := (i 1).isLt
    have hi2 : (i 2).val < 16 := (i 2).isLt
    have hN : cfg0.N = 2048 := N_0
    refine ⟨⟨(i 0).val * 1024 + 1023, by omega⟩, (flush0_1 _).mpr (by show ((i 0).val * 1024 + 1023) % 1024 = 1023; omega), ?_⟩
    obtain ⟨_, _, _, e0, e1, e2⟩ := idx_facts ⟨(i 0).val * 1024 + 1023, by omega⟩
    rw [mem_blk]
    intro a
    match a with
    | ⟨0, _⟩ =>
      show win0_1.index _ (0 : Fin 3) * 1 ≤ (i 0).val ∧ (i 0).val < win0_1.index _ (0 : Fin 3) * 1 + 1
      rw [e0]; show ((i 0).val * 1024 + 1023) / 1024 * 1 ≤ (i 0).val ∧ (i 0).val < ((i 0).val * 1024 + 1023) / 1024 * 1 + 1; omega
    | ⟨1, _⟩ =>
      show win0_1.index _ (1 : Fin 3) * 16 ≤ (i 1).val ∧ (i 1).val < win0_1.index _ (1 : Fin 3) * 16 + 16
      rw [e1]; omega
    | ⟨2, _⟩ =>
      show win0_1.index _ (2 : Fin 3) * 16 ≤ (i 2).val ∧ (i 2).val < win0_1.index _ (2 : Fin 3) * 16 + 16
      rw [e2]; omega

end Cert.KernelIdeal.Array

end
-- ==== Proof.KernelHost.lean ====
/-
  The array the region reads, as the host operations before it build it: the two inputs, each read row-major
  as [262144,128], stacked on a new leading axis.  Entry (a, r, q) is position 128·r + q of input a.
-/
import proofs.«172522_j89893665505443_2_alg».proof.Proof.Gen.KernelIdeal.Frame
import proofs.«172522_j89893665505443_2_alg».proof.Proof.HistSpec
import Idealize.ShloMosaic.Lib.ValueIdx
import Idealize.ShloMosaic.Lib.Pipeline.Value
import Idealize.ShloMosaic.Lib.StableHlo.Run

noncomputable section

namespace Cert.KernelIdeal.Host

open Idealize.ShloMosaic Idealize.ShloMosaic.TcCoe Idealize.ShloMosaic.ValueIdx Idealize.SL.Sem
open Idealize.ShloMosaic.StableHlo
open Cert.KernelIdeal Cert.KernelIdeal.Gen Cert.HistSpec

variable (m : (ℓ : Loc nD τ sig) → Buf (Elt Ideal) ℓ)

/-- One input stacked: read row-major as [262144,128] and given a leading unit axis. -/
def layer (x : (⟨S64x2x512x512, .f32⟩ : BufTy).Contents (Elt Ideal)) : (⟨S1x262144x128, .f32⟩ : BufTy).Contents (Elt Ideal) :=
  broadcastInDim S1x262144x128 ![1, 2] bcast_S262144x128_S1x262144x128_1_2
    (shapeCast S262144x128 x shapeCasts_S64x2x512x512_S262144x128)

/-- The region's input array is the two layers concatenated. -/
theorem V_stacked (c : Dev nD) :
    (V m c main_v4 : S2x262144x128.Idx → EReal)
      = concatenate S2x262144x128 0 [⟨S1x262144x128, layer (m ((c : Thread nD τ).loc main_arg0))⟩,
          ⟨S1x262144x128, layer (m ((c : Thread nD τ).loc main_arg1))⟩] concatenates_S1x262144x128_S1x262144x128_S2x262144x128_d0 := by
  show StableHlo.after hostOps0 (fun b => m (c, b)) (Proc.devRef .tc main_v4) = _
  after_results
  rfl

/-- A layer at (0, r, q) is the input at row-major position 128·r + q. -/
theorem layer_apply (x : (⟨S64x2x512x512, .f32⟩ : BufTy).Contents (Elt Ideal)) (r : Fin 262144) (q : Fin 128) :
    layer x (ix3 (0 : Fin 1) r q) = x (unflat ⟨r.val * 128 + q.val, by have := r.isLt; have := q.isLt; omega⟩) := by
  unfold layer
  rw [broadcastInDim_apply _ bcast_S262144x128_S1x262144x128_1_2 _ (ix3 (0 : Fin 1) r q) (ix2 r q)
    (fun a => by match a with
      | ⟨0, _⟩ => rfl
      | ⟨1, _⟩ => rfl)]
  exact shapeCast_apply x shapeCasts_S64x2x512x512_S262144x128 (ix2 r q) _
    (by rw [Shape.rowMajor_val_four, Shape.rowMajor_val_two]
        have := r.isLt; have := q.isLt
        show (((r.val * 128 + q.val) / 524288 * 2 + (r.val * 128 + q.val) / 262144 % 2) * 512 + (r.val * 128 + q.val) / 512 % 512) * 512
          + (r.val * 128 + q.val) % 512 = r.val * 128 + q.val
        omega)

/-- Layer 0 of the region's input is the first argument, -/
theorem stacked_apply0 (c : Dev nD) (r : Fin 262144) (q : Fin 128) :
    (V m c main_v4 : S2x262144x128.Idx → EReal) (ix3 (0 : Fin 2) r q)
      = m ((c : Thread nD τ).loc main_arg0) (unflat ⟨r.val * 128 + q.val, by have := r.isLt; have := q.isLt; omega⟩) := by
  rw [V_stacked]
  refine (concatenate_pair_apply_left (t := S2x262144x128) (s₁ := S1x262144x128) (s₂ := S1x262144x128) (0 : Fin 3)
    (layer (m ((c : Thread nD τ).loc main_arg0))) (layer (m ((c : Thread nD τ).loc main_arg1)))
    concatenates_S1x262144x128_S1x262144x128_S2x262144x128_d0
    (ix3 (0 : Fin 2) r q) rfl (ix3 (0 : Fin 1) r q)
    (fun b => by match b with
      | ⟨0, _⟩ => rfl
      | ⟨1, _⟩ => rfl
      | ⟨2, _⟩ => rfl)).trans ?_
  exact layer_apply _ r q

/-- and layer 1 the second. -/
theorem stacked_apply1 (c : Dev nD) (r : Fin 262144) (q : Fin 128) :
    (V m c main_v4 : S2x262144x128.Idx → EReal) (ix3 (1 : Fin 2) r q)
      = m ((c : Thread nD τ).loc main_arg1) (unflat ⟨r.val * 128 + q.val, by have := r.isLt; have := q.isLt; omega⟩) := by
  rw [V_stacked]
  refine (concatenate_pair_apply_right (t := S2x262144x128) (s₁ := S1x262144x128) (s₂ := S1x262144x128) (0 : Fin 3)
    (layer (m ((c : Thread nD τ).loc main_arg0))) (layer (m ((c : Thread nD τ).loc main_arg1)))
    concatenates_S1x262144x128_S1x262144x128_S2x262144x128_d0
    (ix3 (1 : Fin 2) r q) rfl rfl (ix3 (0 : Fin 1) r q)
    (fun b hb => by match b with
      | ⟨0, _⟩ => exact absurd rfl hb
      | ⟨1, _⟩ => rfl
      | ⟨2, _⟩ => rfl)
    rfl).trans ?_
  exact layer_apply _ r q

end Cert.KernelIdeal.Host

end
-- ==== Proof.SumTiles.lean ====
/-
  A sum over 1024 tiles of 32768 elements each, the element's position being 32768·tile + offset, is the sum
  over all 33554432 positions.
-/
import Mathlib.Algebra.BigOperators.Fin
import Mathlib.Data.EReal.Basic
import Mathlib.Logic.Equiv.Fin.Basic

namespace Cert.SumTiles

theorem sum_tiles {M : Type*} [AddCommMonoid M] (g : ℕ → M) :
    ∑ tt ∈ Finset.range 1024, ∑ k : Fin 32768, g (tt * 32768 + k.val) = ∑ n : Fin 33554432, g n.val := by
  rw [Finset.sum_range, ← Fintype.sum_prod_type' (f := fun (tt : Fin 1024) (k : Fin 32768) => g (tt.val * 32768 + k.val))]
  refine Fintype.sum_equiv (finProdFinEquiv (m := 1024) (n := 32768)) _ _ fun p => ?_
  show g (p.1.val * 32768 + p.2.val) = g (p.2.val + 32768 * p.1.val)
  rw [Nat.mul_comm, Nat.add_comm]

end Cert.SumTiles
-- ==== Proof.KernelCounts.lean ====
/-
  The output array is the two inputs' histograms.

  Point 1024·a + s reads rows 256·s … 256·s + 255 of layer a, which are positions 32768·s … 32768·s + 32767 of
  input a; so the 1024 tiles of an input run through all its 33554432 positions once, and entry (a, h, l) of
  the output counts input a's elements in range whose bin is 16·h + l.
-/
import proofs.«172522_j89893665505443_2_alg».proof.Proof.KernelArray
import proofs.«172522_j89893665505443_2_alg».proof.Proof.KernelHost
import proofs.«172522_j89893665505443_2_alg».proof.Proof.SumTiles

noncomputable section

namespace Cert.KernelIdeal.Counts

open Idealize.ShloMosaic Idealize.ShloMosaic.TcCoe Idealize.ShloMosaic.ValueIdx Idealize.SL.Sem
open Cert.KernelIdeal Cert.KernelIdeal.Gen Cert.KernelIdeal.Chain Cert.KernelIdeal.Array Cert.KernelIdeal.Host Cert.HistSpec

variable (m : (ℓ : Loc nD τ sig) → Buf (Elt Ideal) ℓ)

/-- The tile at point t, entry (p, q): row 256·(t mod 1024) + p of layer t / 1024. -/
theorem iblk_apply (c : Dev nD) (t : Fin cfg0.N) (p : Fin 256) (q : Fin 128) :
    (iblk m c 0 t : Vec Ideal S1x256x128 .f32) (ix3 (0 : Fin 1) p q)
      = (V m c main_v4 : S2x262144x128.Idx → EReal)
          (ix3 (⟨t.val / 1024, by have := lt_of_lt_of_eq t.isLt (show cfg0.N = 2048 from N_0); omega⟩ : Fin 2)
            (⟨t.val % 1024 * 256 + p.val, by have := p.isLt; omega⟩ : Fin 262144) q) := by
  obtain ⟨e0, e1, e2, _, _, _⟩ := idx_facts t
  unfold iblk
  rw [View.read_apply]
  show V m c main_v4 (((cfg0.win 0).blk t).view.emb (ix3 (0 : Fin 1) p q)) = V m c main_v4 _
  congr 1
  funext a
  apply Fin.ext
  match a with
  | ⟨0, _⟩ => show win0_0.index t (0 : Fin 3) * 1 + 1 * 0 = t.val / 1024; rw [e0]; omega
  | ⟨1, _⟩ => show win0_0.index t (1 : Fin 3) * 256 + 1 * p.val = t.val % 1024 * 256 + p.val; rw [e1]; omega
  | ⟨2, _⟩ => show win0_0.index t (2 : Fin 3) * 128 + 1 * q.val = q.val; rw [e2]; omega

/-- Tile s of the input stacked as layer a counts positions 32768·s … 32768·s + 32767 of that input. -/
theorem tile_eq (c : Dev nD) (a : Fin 2) (x : (⟨4, ![64, 2, 512, 512]⟩ : Shape).Idx → EReal)
    (hx : ∀ (r : Fin 262144) (q : Fin 128), (V m c main_v4 : S2x262144x128.Idx → EReal) (ix3 a r q)
      = x (unflat ⟨r.val * 128 + q.val, by have := r.isLt; have := q.isLt; omega⟩))
    (s : ℕ) (hs : s < 1024) (j : S16x16.Idx) :
    tileCounts m c (a.val * 1024 + s) j
      = ∑ k : Fin 32768, ind (x (unflat ⟨s * 32768 + k.val, by have := k.isLt; omega⟩)) (16 * (j 0).val + (j 1).val) := by
  have ha := a.isLt
  have hN : cfg0.N = 2048 := N_0
  unfold tileCounts
  rewrite [dif_pos (show a.val * 1024 + s < cfg0.N by omega)]
  refine Finset.sum_congr rfl fun k _ => ?_
  have hk := k.isLt
  rewrite [iblk_apply]
  have ea : (⟨(a.val * 1024 + s) / 1024, by omega⟩ : Fin 2) = a := Fin.ext (by show (a.val * 1024 + s) / 1024 = a.val; omega)
  have er : (⟨(a.val * 1024 + s) % 1024 * 256 + k.val / 128, by omega⟩ : Fin 262144) = ⟨s * 256 + k.val / 128, by omega⟩ :=
    Fin.ext (by show (a.val * 1024 + s) % 1024 * 256 + k.val / 128 = s * 256 + k.val / 128; omega)
  show ind ((V m c main_v4 : S2x262144x128.Idx → EReal)
      (ix3 (⟨(a.val * 1024 + s) / 1024, by omega⟩ : Fin 2) (⟨(a.val * 1024 + s) % 1024 * 256 + k.val / 128, by omega⟩ : Fin 262144)
        (⟨k.val % 128, by omega⟩ : Fin 128))) _ = _
  rewrite [ea, er, hx]
  have eu : (⟨(s * 256 + k.val / 128) * 128 + k.val % 128, by omega⟩ : Fin 33554432) = ⟨s * 32768 + k.val, by omega⟩ :=
    Fin.ext (by show (s * 256 + k.val / 128) * 128 + k.val % 128 = s * 32768 + k.val; omega)
  show ind (x (unflat (⟨(s * 256 + k.val / 128) * 128 + k.val % 128, by omega⟩ : Fin 33554432))) _ = _
  rewrite [eu]
  rfl

/-- So the output's entry (a, h, l) is slot 16·h + l of that input's histogram. -/
theorem outArr_eq (c : Dev nD) (a : Fin 2) (x : (⟨4, ![64, 2, 512, 512]⟩ : Shape).Idx → EReal)
    (hx : ∀ (r : Fin 262144) (q : Fin 128), (V m c main_v4 : S2x262144x128.Idx → EReal) (ix3 a r q)
      = x (unflat ⟨r.val * 128 + q.val, by have := r.isLt; have := q.isLt; omega⟩))
    (hh ll : Fin 16) :
    (outArr m c : S2x16x16.Idx → EReal) (ix3 a hh ll)
      = counts x (ix1 (⟨16 * hh.val + ll.val, by have := hh.isLt; have := ll.isLt; omega⟩ : Fin 256)) := by
  let g : ℕ → EReal := fun n => if h : n < 33554432 then ind (x (unflat ⟨n, h⟩)) (16 * hh.val + ll.val) else 0
  have e1 : (outArr m c : S2x16x16.Idx → EReal) (ix3 a hh ll)
      = ∑ s ∈ Finset.range 1024, ∑ k : Fin 32768, g (s * 32768 + k.val) := by
    show ∑ s ∈ Finset.range 1024, tileCounts m c (a.val * 1024 + s) (ix2 hh ll) = _
    refine Finset.sum_congr rfl fun s hs => ?_
    rewrite [tile_eq m c a x hx s (Finset.mem_range.mp hs)]
    refine Finset.sum_congr rfl fun k _ => ?_
    have hk := k.isLt
    have hs' := Finset.mem_range.mp hs
    show _ = dite (s * 32768 + k.val < 33554432) _ _
    rw [dif_pos (show s * 32768 + k.val < 33554432 by omega)]
  have e2 : ∑ n : Fin 33554432, g n.val
      = counts x (ix1 (⟨16 * hh.val + ll.val, by have := hh.isLt; have := ll.isLt; omega⟩ : Fin 256)) :=
    Finset.sum_congr rfl fun n _ => by
      show dite (n.val < 33554432) _ _ = _
      rw [dif_pos n.isLt]
  exact e1.trans ((Cert.SumTiles.sum_tiles g).trans e2)

end Cert.KernelIdeal.Counts

end
-- ==== Proof.KernelTail.lean ====
/-
  After the region: the [2,16,16] output is read as two rows of 256 slots — entry (a, h, l) becomes slot
  16·h + l of row a —, and the result is the entropy gap of the two rows.  With the output array's entries
  being the inputs' histograms, the kernel's result is the entropy gap of the two histograms.
-/
import proofs.«172522_j89893665505443_2_alg».proof.Proof.KernelCounts

noncomputable section

namespace Cert.KernelIdeal.Tail

open Idealize.ShloMosaic Idealize.ShloMosaic.TcCoe Idealize.ShloMosaic.ValueIdx Idealize.SL.Sem
open Idealize.ShloMosaic.StableHlo
open Cert.KernelIdeal Cert.KernelIdeal.Gen Cert.KernelIdeal.Array Cert.KernelIdeal.Host Cert.KernelIdeal.Counts Cert.HistSpec

variable (m : (ℓ : Loc nD τ sig) → Buf (Elt Ideal) ℓ)

/-- Row 0 of the output read as [2,256], as 256 slots. -/
def row0 (A : S2x16x16.Idx → EReal) : FVec Ideal S256 .f32 :=
  shapeCast S256 (extractStridedSlice S1x256 ![0, 0] (shapeCast S2x256 A shapeCasts_S2x16x16_S2x256) slices_S2x256_S1x256_0_0)
    shapeCasts_S1x256_S256
/-- Row 1 likewise. -/
def row1 (A : S2x16x16.Idx → EReal) : FVec Ideal S256 .f32 :=
  shapeCast S256 (extractStridedSlice S1x256 ![1, 0] (shapeCast S2x256 A shapeCasts_S2x16x16_S2x256) slices_S2x256_S1x256_1_0)
    shapeCasts_S1x256_S256

/-- Slot n of row 0 is entry (0, n / 16, n mod 16). -/
theorem row0_apply (A : S2x16x16.Idx → EReal) (n : Fin 256) :
    row0 A (ix1 n) = A (ix3 (0 : Fin 2) (⟨n.val / 16, by have := n.isLt; omega⟩ : Fin 16) (⟨n.val % 16, by omega⟩ : Fin 16)) := by
  unfold row0
  rw [shapeCast_apply _ shapeCasts_S1x256_S256 (ix1 n) (ix2 (0 : Fin 1) n)
      (by rw [Shape.rowMajor_val_two, Shape.rowMajor_val_one]; show 0 * 256 + n.val = n.val; omega),
    extractStridedSlice_apply ![0, 0] _ slices_S2x256_S1x256_0_0 (ix2 (0 : Fin 1) n) (ix2 (0 : Fin 2) n)
      (fun a => by match a with
        | ⟨0, _⟩ => rfl
        | ⟨1, _⟩ => show n.val = 0 + n.val; omega),
    shapeCast_apply A shapeCasts_S2x16x16_S2x256 (ix2 (0 : Fin 2) n)
      (ix3 (0 : Fin 2) (⟨n.val / 16, by have := n.isLt; omega⟩ : Fin 16) (⟨n.val % 16, by omega⟩ : Fin 16))
      (by rw [Shape.rowMajor_val_three, Shape.rowMajor_val_two]
          show (0 * 16 + n.val / 16) * 16 + n.val % 16 = 0 * 256 + n.val
          omega)]

/-- Slot n of row 1 is entry (1, n / 16, n mod 16). -/
theorem row1_apply (A : S2x16x16.Idx → EReal) (n : Fin 256) :
    row1 A (ix1 n) = A (ix3 (1 : Fin 2) (⟨n.val / 16, by have := n.isLt; omega⟩ : Fin 16) (⟨n.val % 16, by omega⟩ : Fin 16)) := by
  unfold row1
  rw [shapeCast_apply _ shapeCasts_S1x256_S256 (ix1 n) (ix2 (0 : Fin 1) n)
      (by rw [Shape.rowMajor_val_two, Shape.rowMajor_val_one]; show 0 * 256 + n.val = n.val; omega),
    extractStridedSlice_apply ![1, 0] _ slices_S2x256_S1x256_1_0 (ix2 (0 : Fin 1) n) (ix2 (1 : Fin 2) n)
      (fun a => by match a with
        | ⟨0, _⟩ => rfl
        | ⟨1, _⟩ => show n.val = 0 + n.val; omega),
    shapeCast_apply A shapeCasts_S2x16x16_S2x256 (ix2 (1 : Fin 2) n)
      (ix3 (1 : Fin 2) (⟨n.val / 16, by have := n.isLt; omega⟩ : Fin 16) (⟨n.val % 16, by omega⟩ : Fin 16))
      (by rw [Shape.rowMajor_val_three, Shape.rowMajor_val_two]
          show (1 * 16 + n.val / 16) * 16 + n.val % 16 = 1 * 256 + n.val
          omega)]

/-- Row 0 of the output array is the first input's histogram, -/
theorem row0_out (c : Dev nD) : row0 (outArr m c) = counts (m ((c : Thread nD τ).loc main_arg0)) := by
  funext i
  obtain ⟨n, rfl⟩ : ∃ n : Fin 256, i = ix1 n := ⟨i 0, eq_ix1 i⟩
  rewrite [row0_apply, outArr_eq m c (0 : Fin 2) _ (stacked_apply0 m c)]
  exact congrArg (counts _) (congrArg ix1 (Fin.ext (by show 16 * (n.val / 16) + n.val % 16 = n.val; omega)))

/-- and row 1 the second's. -/
theorem row1_out (c : Dev nD) : row1 (outArr m c) = counts (m ((c : Thread nD τ).loc main_arg1)) := by
  funext i
  obtain ⟨n, rfl⟩ : ∃ n : Fin 256, i = ix1 n := ⟨i 0, eq_ix1 i⟩
  rewrite [row1_apply, outArr_eq m c (1 : Fin 2) _ (stacked_apply1 m c)]
  exact congrArg (counts _) (congrArg ix1 (Fin.ext (by show 16 * (n.val / 16) + n.val % 16 = n.val; omega)))

set_option maxHeartbeats 8000000 in
/-- The host operations after the region, applied to the array the region left. -/
theorem tail_eq (c : Dev nD) :
    Pipeline.afterTail₀ cfgs (dats m) 0 (V0 m) [hostOps1] c main_v30
      = entropyGap reducesTo_S256_S_d0 h_S_ bcast_S_S256
          (row0 ((dats m 0 c).arrAt 1 cfg0.N)) (row1 ((dats m 0 c).arrAt 1 cfg0.N)) := by
  unfold Pipeline.afterTail₀
  simp only [List.flatten_cons, List.flatten_nil, List.append_nil]
  after_results
  rw [show Pipeline.withArrays (cfgs 0).spec c (V0 m c) (fun w => (dats m 0 c).arrAt w (cfgs 0).N) (Proc.tc.devRef main_v5)
    = (dats m 0 c).arrAt 1 cfg0.N from Pipeline.withArrays_arr spec0 launch0.win.arr_inj c _ _ 1]
  rfl

/-- THE KERNEL'S RESULT: the entropy gap of the two inputs' histograms. -/
theorem result_eq (c : Dev nD) :
    Pipeline.afterTail₀ cfgs (dats m) 0 (V0 m) [hostOps1] c main_v30
      = entropyGap reducesTo_S256_S_d0 h_S_ bcast_S_S256
          (counts (m ((c : Thread nD τ).loc main_arg0))) (counts (m ((c : Thread nD τ).loc main_arg1))) := by
  rw [tail_eq, final, row0_out, row1_out]

/-- The kernel's run at the extended reals: its result is the entropy gap of the two inputs' histograms, its
    arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
        = entropyGap reducesTo_S256_S_d0 h_S_ bcast_S_S256
            (counts (m ((c.tc : Thread nD τ).loc main_arg0))) (counts (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefHist.lean ====
/-
  The reference side: its two scatter-adds are the two histograms, and its result the entropy gap of them.

  A scatter-add into 256 zeroed slots of the 0/1 mask at the clipped bin words leaves in slot `i` the sum of
  the mask over the elements whose bin is `i` (every bin word is below 256, so no update is dropped): the
  count of elements in range with bin `i`.
-/
import proofs.«172522_j89893665505443_2_alg».proof.Proof.Gen.ReferenceIdeal.Read
import proofs.«172522_j89893665505443_2_alg».proof.Proof.HistSpec
import Idealize.ShloMosaic.Lib.ValueIdx

noncomputable section

namespace Cert.RefHist

open Cert.ReferenceIdeal Cert.ReferenceIdeal.Gen Cert.ReferenceIdeal.Read Cert.HistSpec
open Idealize.ShloMosaic Idealize.ShloMosaic.ValueIdx

/-- The scatter's dimension numbers: one index per update, onto the one axis of the 256 slots. -/
abbrev dS := scatter_S256_S33554432x1_S33554432_n_0_0_1

/-- Update `j` starts at the word the index array holds in row `j`, -/
theorem start0 (j : S33554432.Idx) (idx : IVec S33554432x1 32) :
    dS.start j idx 0 = (idx (ix2 (j 0) (0 : Fin 1))).toInt := by
  unfold ScatterDims.start
  rw [dif_pos (by decide)]
  congr 2
  funext b
  match b with
  | ⟨0, _⟩ => rfl
  | ⟨1, _⟩ => rfl

/-- with no window coordinate to add. -/
theorem window0 (j : S33554432.Idx) : dS.window j 0 = 0 := by
  unfold ScatterDims.window
  rw [dif_neg (by decide)]

/-- So an update whose index word is below 256 lands on slot `i` exactly when that word is `i`. -/
theorem resultIdx_iff (j : S33554432.Idx) (idx : IVec S33554432x1 32) (i : S256.Idx)
    (hlt : (idx (ix2 (j 0) (0 : Fin 1))).toNat < 256) :
    dS.resultIdx? j idx = some i ↔ (idx (ix2 (j 0) (0 : Fin 1))).toNat = (i 0).val := by
  have hInt : (idx (ix2 (j 0) (0 : Fin 1))).toInt = ((idx (ix2 (j 0) (0 : Fin 1))).toNat : ℤ) := by
    rw [BitVec.toInt_eq_toNat_cond, if_pos (by omega)]
  have hall : ∀ a, 0 ≤ dS.start j idx a + dS.window j a ∧ dS.start j idx a + dS.window j a < S256.size a := by
    intro a
    match a with
    | ⟨0, _⟩ =>
      show 0 ≤ dS.start j idx 0 + (dS.window j 0 : ℤ) ∧ dS.start j idx 0 + (dS.window j 0 : ℤ) < (256 : ℕ)
      rw [start0, window0, hInt]; omega
  unfold ScatterDims.resultIdx?
  rw [dif_pos hall]
  constructor
  · intro h
    have h' := congrFun (Option.some.inj h) 0
    have := congrArg Fin.val h'
    simp only at this
    rw [← this]
    show _ = (dS.start j idx 0 + (dS.window j 0 : ℤ)).toNat
    rw [start0, window0, hInt]; omega
  · intro h
    congr 1
    funext a
    match a with
    | ⟨0, _⟩ =>
      apply Fin.ext
      show (dS.start j idx 0 + (dS.window j 0 : ℤ)).toNat = (i 0).val
      rw [start0, window0, hInt]; omega

/-- A mask bit as a real, kept where the bin matches: the element's contribution to that bin. -/
theorem mask_at (r : BitVec 1) (b n : ℕ) :
    (if b = n then (((r.toNat : ℝ)) : EReal) else 0) = if r = 1#1 ∧ b = n then 1 else 0 := by
  by_cases hb : b = n
  · rw [if_pos hb]
    by_cases hr : r = 1#1
    · rw [if_pos ⟨hr, hb⟩, hr]; simp
    · rw [if_neg (fun h => hr h.1), eq_zero_of_ne_one hr]; simp
  · rw [if_neg hb, if_neg (fun h => hb h.2)]

/-- The one-axis index of the flattened input is its one coordinate. -/
def flatEquiv : S33554432.Idx ≃ Fin 33554432 where
  toFun j := j 0
  invFun n := ix1 n
  left_inv j := (eq_ix1 j).symm
  right_inv _ := rfl

/-- THE SCATTER IS THE HISTOGRAM: into zeros, at the bin words of the flattened input, of its 0/1 mask. -/
theorem scatter_counts (x : (⟨4, ![64, 2, 512, 512]⟩ : Shape).Idx → EReal) (X : S33554432.Idx → EReal)
    (hX : ∀ j, X j = x (unflat (j 0))) (z : FVec Ideal S256 .f32) (hz : ∀ i, z i = 0)
    (idx : IVec S33554432x1 32) (hidx : ∀ j : S33554432.Idx, idx (ix2 (j 0) (0 : Fin 1)) = binWord (X j))
    (upd : FVec Ideal S33554432 .f32) (hupd : ∀ j, upd j = (((inRange (X j)).toNat : ℝ) : EReal)) :
    Host.scatterAdd (F := Ideal) dS z idx upd = counts x := by
  funext i
  show Ideal.hostScatterAdd dS z idx upd i = _
  unfold Ideal.hostScatterAdd counts
  rw [hz i, zero_add, Finset.sum_filter]
  refine Fintype.sum_equiv flatEquiv _ _ fun j => ?_
  have hlt : (idx (ix2 (j 0) (0 : Fin 1))).toNat < 256 := by rw [hidx]; exact binWord_lt _
  rw [if_congr (resultIdx_iff j idx i hlt) rfl rfl, hidx, hupd, mask_at, hX]
  rfl

/-- The first input's scatter is its histogram. -/
theorem hist0 (x0 : (⟨S64x2x512x512, .f32⟩ : BufTy).Contents (Elt Ideal)) : val_main_v16 (F := Ideal) x0 = counts x0 := by
  unfold val_main_v16
  refine scatter_counts x0 (val_main_v0 (F := Ideal) x0) (fun j => ?_) _ (fun i => ?_) _ (fun j => ?_) _ (fun j => ?_)
  · rw [val_main_v0_apply]; rfl
  · show Ideal.ofBits .f32 0x00000000#32 = 0
    exact Ideal.ofBits_zero_f32
  · rw [val_main_v15_apply]
    have : idx_main_v15 (ix2 (j 0) (0 : Fin 1)) = j := by funext a; match a with | ⟨0, _⟩ => rfl
    rw [this]
    rfl
  · rfl

/-- The second input's scatter is its histogram. -/
theorem hist1 (x1 : (⟨S64x2x512x512, .f32⟩ : BufTy).Contents (Elt Ideal)) : val_main_v33 (F := Ideal) x1 = counts x1 := by
  unfold val_main_v33
  refine scatter_counts x1 (val_main_v17 (F := Ideal) x1) (fun j => ?_) _ (fun i => ?_) _ (fun j => ?_) _ (fun j => ?_)
  · rw [val_main_v17_apply]; rfl
  · show Ideal.ofBits .f32 0x00000000#32 = 0
    exact Ideal.ofBits_zero_f32
  · rw [val_main_v32_apply]
    have : idx_main_v32 (ix2 (j 0) (0 : Fin 1)) = j := by funext a; match a with | ⟨0, _⟩ => rfl
    rw [this]
    rfl
  · rfl

/-- The reference's result is the entropy gap of the two histograms. -/
theorem result_eq (x0 x1 : (⟨S64x2x512x512, .f32⟩ : BufTy).Contents (Elt Ideal)) :
    val_main_v53 (F := Ideal) x0 x1 = entropyGap reducesTo_S256_S_d0 h_S_ bcast_S_S256 (counts x0) (counts x1) := by
  rw [← hist0 x0, ← hist1 x1]
  rfl

end Cert.RefHist

end
-- ==== Proof.lean ====
/-
  Both programs compute |H(p̂) − H(ĝ)|, the gap between the entropies of the 256-bin histograms over [-1, 1] of
  two inputs of 64·2·512·512 numbers, where H(h) = −∑ p·log p for p = h / ∑h + 1e-8.

  An element x is counted when −1 ≤ x ≤ 1, in bin clip(⌊(x + 1)·128⌋, 0, 255).  The reference scatters the 0/1
  mask of the counted elements to their bins with an accumulating scatter: slot i ends at the number of
  counted elements whose bin is i.  The kernel splits a bin into its nibbles (h, l) = (bin / 16, bin mod 16),
  builds for each tile of 32768 elements the two 32768×16 matrices of 0/1 entries "element k has high nibble
  h" and "element k has low nibble l" (both all zero in the rows of uncounted elements), multiplies the first,
  transposed, by the second — entry (h, l) of the product counts the tile's elements in bin 16·h + l — and sums
  the 1024 tiles of an input in a scratch accumulator, written out after the input's last tile.  Over the
  extended reals every factor is 0 or 1 and every sum is exact, so the product of the two nibble tests is
  the test bin = 16·h + l, and the kernel's [2,16,16] array, read as [2,256], holds the same two histograms
  as the reference's two scatters.  From there the two programs apply the same operations.  No law used here
  needs the inputs to be finite: sums of 0/1 terms are only regrouped.

  The three frames: the kernels' are the generated frame runs; the reference's is its generated run with the
  result dropped.  The ideal pass rewrote nothing, so the preservation claim is trivial.
-/
import proofs.«172522_j89893665505443_2_alg».proof.Defs
import proofs.«172522_j89893665505443_2_alg».proof.Proof.Gen.Kernel
import proofs.«172522_j89893665505443_2_alg».proof.Proof.Gen.Kernel.Skeleton
import proofs.«172522_j89893665505443_2_alg».proof.Proof.Gen.Kernel.Launch
import proofs.«172522_j89893665505443_2_alg».proof.Proof.Gen.Kernel.Points
import proofs.«172522_j89893665505443_2_alg».proof.Proof.Gen.Kernel.Frame
import proofs.«172522_j89893665505443_2_alg».proof.Proof.Gen.KernelIdeal
import proofs.«172522_j89893665505443_2_alg».proof.Proof.Gen.KernelIdeal.Skeleton
import proofs.«172522_j89893665505443_2_alg».proof.Proof.Gen.KernelIdeal.Launch
import proofs.«172522_j89893665505443_2_alg».proof.Proof.Gen.KernelIdeal.Points
import proofs.«172522_j89893665505443_2_alg».proof.Proof.Gen.KernelIdeal.Frame
import proofs.«172522_j89893665505443_2_alg».proof.Proof.Gen.ReferenceIdeal
import proofs.«172522_j89893665505443_2_alg».proof.Proof.Gen.ReferenceIdeal.Run
import proofs.«172522_j89893665505443_2_alg».proof.Proof.Gen.ReferenceIdeal.Read
import proofs.«172522_j89893665505443_2_alg».proof.Proof.Gen.Pre_finite_inputs
import proofs.«172522_j89893665505443_2_alg».proof.Proof.KernelTail
import proofs.«172522_j89893665505443_2_alg».proof.Proof.RefHist
import Idealize.ShloMosaic.Adequacy
import Idealize.ShloMosaic.Init

noncomputable section

namespace Cert.Proof

open Idealize.ShloMosaic Idealize.ShloMosaic.TcCoe Idealize.SL.Sem Cert.HistSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two inputs, both programs end at the entropy gap of the inputs'
    histograms. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.RefHist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
